-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  @main is eight segments: three stretches of host operations, the first blocked product, two stretches, the second
  blocked product, a last stretch. The contents of the device's buffers at each boundary are a fold: a host stretch
  applies its operations to what it finds, a blocked product leaves its output array at what its ten write-backs
  leave and every other buffer as it found it. Every weakly fair execution terminates without a fault, and in the
  final state every buffer that outlives the kernels holds the last boundary's contents. Read at the result buffer,
  that is the result as a function of the launch memory; read at an argument, it is the argument as launched.
-/
import proofs.«103256_j5394478924400_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents and the six arguments end as launched. -/
theorem run_named : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.Spec.lean ====
/-
  The two-layer graph convolution, stage by stage, as functions of arrays.

  The graph has 100000 nodes and 1600000 directed edges, given as a [2, 1600000] array of node numbers: row 0 the
  sources, row 1 the targets. One self-loop per node is appended, so there are 1700000 (source, target) pairs.
  A node's degree counts the pairs it is the target of; its weight is degree^(-1/2) (0 where the degree is not
  positive), and a pair's weight is the product of its two ends' weights. One layer takes a [100000, d] table `h`,
  sends row `source` of `h`, scaled by the pair's weight, to row `target` (summing what arrives) and adds a bias
  row; the first layer then takes the maximum with 0. Between the layers the table is multiplied by a weight
  matrix: those two products are NOT part of this file — a layer is stated as a function of the product it receives,
  so that two programs that form the products differently share everything else.

  Node numbers are 32-bit words; a negative one counts from the end of the table (100000 is added). Every array
  operation below is the host's, spelt as the programs spell it.
-/
import Idealize.ShloMosaic.PureOps

noncomputable section

namespace Gcn

open Idealize.ShloMosaic

variable {F : FTy → Type} [FloatOps F]

/-! ## Shapes -/

abbrev SEdgeList : Shape := ⟨2, ![2, 1600000]⟩
abbrev SEdgeRow : Shape := ⟨2, ![1, 1600000]⟩
abbrev SEdges : Shape := ⟨1, ![1600000]⟩
abbrev SNodes : Shape := ⟨1, ![100000]⟩
abbrev SPairs : Shape := ⟨1, ![1700000]⟩
abbrev SPairsCol : Shape := ⟨2, ![1700000, 1]⟩
abbrev SScalar : Shape := ⟨0, ![]⟩
abbrev SNodes128 : Shape := ⟨2, ![100000, 128]⟩
abbrev SPairs128 : Shape := ⟨2, ![1700000, 128]⟩
abbrev SRow128 : Shape := ⟨2, ![1, 128]⟩
abbrev SVec128 : Shape := ⟨1, ![128]⟩
abbrev SNodes64 : Shape := ⟨2, ![100000, 64]⟩
abbrev SPairs64 : Shape := ⟨2, ![1700000, 64]⟩
abbrev SRow64 : Shape := ⟨2, ![1, 64]⟩
abbrev SVec64 : Shape := ⟨1, ![64]⟩

/-! ## The pairs: the edges, then one self-loop per node -/

/-- 1600000 edge ends followed by 100000 node numbers are 1700000 numbers. -/
theorem edges_then_nodes : Shape.Concatenates [SEdges, SNodes] SPairs 0 := by decide

/-- The sources: row 0 of the edge list, then the nodes 0 … 99999. -/
def sources (edges : IVec SEdgeList 32) : IVec SPairs 32 :=
  concatenate SPairs 0 [⟨SEdges, shapeCast SEdges (extractStridedSlice SEdgeRow ![0, 0] edges)⟩,
    ⟨SNodes, iotaInDim SNodes 32 0⟩] edges_then_nodes

/-- The targets: row 1 of the edge list, then the nodes 0 … 99999. -/
def targets (edges : IVec SEdgeList 32) : IVec SPairs 32 :=
  concatenate SPairs 0 [⟨SEdges, shapeCast SEdges (extractStridedSlice SEdgeRow ![1, 0] edges)⟩,
    ⟨SNodes, iotaInDim SNodes 32 0⟩] edges_then_nodes

/-- Node numbers as a column of row numbers of a 100000-row table: a negative number has 100000 added. -/
def rowsOf (v : IVec SPairs 32) : IVec SPairsCol 32 :=
  broadcastInDim SPairsCol ![0] (by decide)
    (select (cmpi .slt v (broadcastInDim SPairs ![] (by decide) (constantI SScalar 32 0#32)))
      (addi v (broadcastInDim SPairs ![] (by decide) (constantI SScalar 32 100000#32))) v)

/-! ## Degrees and weights -/

/-- Summing one number per pair into the node the pair's column entry names. -/
def intoNodes : ScatterDims SNodes SPairsCol SPairs where
  updateWindowDims := []
  insertedWindowDims := [0]
  scatterDimsToOperandDims := [0]
  indexVectorDim := 1

/-- Reading one number per pair from the node the pair's column entry names. -/
def fromNodes : GatherDims SNodes SPairsCol SPairs where
  offsetDims := []
  collapsedSliceDims := [0]
  operandBatchingDims := []
  startIndicesBatchingDims := []
  startIndexMap := [0]
  indexVectorDim := 1
  sliceSizes := ![1]

/-- A node's degree: 1.0 summed over the pairs whose target it is, from 0.0. -/
def degree (tgt : IVec SPairs 32) : FVec F SNodes .f32 :=
  Host.scatterAdd intoNodes (broadcastInDim SNodes ![] (by decide) (constant SScalar .f32 0x00000000#32))
    (broadcastInDim SPairsCol ![0] (by decide) tgt)
    (broadcastInDim SPairs ![] (by decide) (constant SScalar .f32 0x3F800000#32))

/-- Where the degree is greater than 0. -/
def positive (tgt : IVec SPairs 32) : IVec SNodes 1 :=
  cmpf .ogt (degree (F := F) tgt) (broadcastInDim SNodes ![] (by decide) (constant SScalar .f32 0x00000000#32))

/-- degree^(-1/2). -/
def invRoot (tgt : IVec SPairs 32) : FVec F SNodes .f32 :=
  Host.rsqrt (degree (F := F) tgt)

/-- A node's weight: degree^(-1/2) where the degree is greater than 0, and 0 elsewhere. -/
def nodeWeight (tgt : IVec SPairs 32) : FVec F SNodes .f32 :=
  select (positive (F := F) tgt) (invRoot (F := F) tgt)
    (broadcastInDim SNodes ![] (by decide) (id (constant SScalar .f32 0x00000000#32)))

/-- A pair's weight: its source's weight times its target's. -/
def pairWeight (src tgt : IVec SPairs 32) : FVec F SPairs .f32 :=
  mulf (Host.gather fromNodes (nodeWeight (F := F) tgt) (rowsOf src))
    (Host.gather fromNodes (nodeWeight (F := F) tgt) (rowsOf tgt))

/-! ## A layer of width 128 -/

def rowsFrom128 : GatherDims SNodes128 SPairsCol SPairs128 where
  offsetDims := [1]
  collapsedSliceDims := [0]
  operandBatchingDims := []
  startIndicesBatchingDims := []
  startIndexMap := [0]
  indexVectorDim := 1
  sliceSizes := ![1, 128]

def rowsInto128 : ScatterDims SNodes128 SPairsCol SPairs128 where
  updateWindowDims := [1]
  insertedWindowDims := [0]
  scatterDimsToOperandDims := [0]
  indexVectorDim := 1

/-- Row `target` of the result sums, over the pairs with that target, the pair's weight times row `source` of `h`. -/
def aggregate128 (h : FVec F SNodes128 .f32) (src tgt : IVec SPairs 32) (w : FVec F SPairs .f32) : FVec F SNodes128 .f32 :=
  Host.scatterAdd rowsInto128 (broadcastInDim SNodes128 ![] (by decide) (constant SScalar .f32 0x00000000#32))
    (broadcastInDim SPairsCol ![0] (by decide) tgt)
    (mulf (broadcastInDim SPairs128 ![0, 1] (by decide) (broadcastInDim SPairsCol ![0] (by decide) w))
      (Host.gather rowsFrom128 h (rowsOf src)))

/-- The first layer before its maximum: aggregate and add the bias row to every row. -/
def preAct1 (h : FVec F SNodes128 .f32) (src tgt : IVec SPairs 32) (w : FVec F SPairs .f32) (b : FVec F SVec128 .f32) :
    FVec F SNodes128 .f32 :=
  addf (aggregate128 h src tgt w)
    (broadcastInDim SNodes128 ![0, 1] (by decide) (broadcastInDim SRow128 ![1] (by decide) b))

/-- The first layer: aggregate, add the bias row to every row, take the maximum with 0. -/
def layer1 (h : FVec F SNodes128 .f32) (src tgt : IVec SPairs 32) (w : FVec F SPairs .f32) (b : FVec F SVec128 .f32) :
    FVec F SNodes128 .f32 :=
  maximumf (preAct1 h src tgt w b)
    (broadcastInDim SNodes128 ![] (by decide) (constant SScalar .f32 0x00000000#32))

/-! ## A layer of width 64 -/

def rowsFrom64 : GatherDims SNodes64 SPairsCol SPairs64 where
  offsetDims := [1]
  collapsedSliceDims := [0]
  operandBatchingDims := []
  startIndicesBatchingDims := []
  startIndexMap := [0]
  indexVectorDim := 1
  sliceSizes := ![1, 64]

def rowsInto64 : ScatterDims SNodes64 SPairsCol SPairs64 where
  updateWindowDims := [1]
  insertedWindowDims := [0]
  scatterDimsToOperandDims := [0]
  indexVectorDim := 1

def aggregate64 (h : FVec F SNodes64 .f32) (src tgt : IVec SPairs 32) (w : FVec F SPairs .f32) : FVec F SNodes64 .f32 :=
  Host.scatterAdd rowsInto64 (broadcastInDim SNodes64 ![] (by decide) (constant SScalar .f32 0x00000000#32))
    (broadcastInDim SPairsCol ![0] (by decide) tgt)
    (mulf (broadcastInDim SPairs64 ![0, 1] (by decide) (broadcastInDim SPairsCol ![0] (by decide) w))
      (Host.gather rowsFrom64 h (rowsOf src)))

/-- The second layer: aggregate and add the bias row to every row. -/
def layer2 (h : FVec F SNodes64 .f32) (src tgt : IVec SPairs 32) (w : FVec F SPairs .f32) (b : FVec F SVec64 .f32) :
    FVec F SNodes64 .f32 :=
  addf (aggregate64 h src tgt w)
    (broadcastInDim SNodes64 ![0, 1] (by decide) (broadcastInDim SRow64 ![1] (by decide) b))

/-! ## The two products, and the network -/

abbrev SMat128 : Shape := ⟨2, ![128, 128]⟩
abbrev SMat64 : Shape := ⟨2, ![128, 64]⟩

/-- The input table times the first weight matrix: entry (r, q) sums `x (r, k) · w (k, q)` over the 128 values of `k`. -/
def product1 (x : FVec F SNodes128 .f32) (w : FVec F SMat128 .f32) : FVec F SNodes128 .f32 :=
  Host.dotGeneral (DotDims.plain 100000 128 128) none x w

/-- The first layer's output times the second weight matrix. -/
def product2 (x : FVec F SNodes128 .f32) (w : FVec F SMat64 .f32) : FVec F SNodes64 .f32 :=
  Host.dotGeneral (DotDims.plain 100000 128 64) none x w

/-- The network: both layers over the pairs of the edge list, each fed the product of the table before it. -/
def network (x : FVec F SNodes128 .f32) (edges : IVec SEdgeList 32) (w1 : FVec F SMat128 .f32) (b1 : FVec F SVec128 .f32)
    (w2 : FVec F SMat64 .f32) (b2 : FVec F SVec64 .f32) : FVec F SNodes64 .f32 :=
  layer2 (product2 (layer1 (product1 x w1) (sources edges) (targets edges) (pairWeight (sources edges) (targets edges)) b1) w2)
    (sources edges) (targets edges) (pairWeight (sources edges) (targets edges)) b2

end Gcn

end
-- ==== Proof.KernelStages.lean ====
/-
  The idealized kernel program's host stretches, each read from arbitrary contents.

  @main's host operations fall into six stretches: (1) the pairs, their targets' degrees, where a degree is positive and
  its inverse square root; (2) a node's weight, chosen between the two; (3) the pairs' weights; (4) aggregate the
  table over the pairs and add the bias row; (5) the maximum with 0; (6) the second layer. Started from ANY contents `Y`
  of the buffers, a stretch leaves in its result buffer one stage of the network applied to the buffers it reads,
  and leaves every buffer it does not write as it was. Nothing here depends on what `Y` is.
-/
import proofs.«103256_j5394478924400_1_alg».proof.Proof.Gen.KernelIdeal.Frame
import proofs.«103256_j5394478924400_1_alg».proof.Proof.Spec
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem

/-- No operation of the stretch writes the buffer: each operation's one result buffer is another reference. -/
local macro "not_written" : tactic => `(tactic| (
  refine StableHlo.after_of_forall_not_mem _ _ (List.forall_iff_forall_mem.mp ?_)
  simp only [hostOps0, hostOps0_1, hostOps0_2, hostOps1, hostOps1_1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Stretch 1: the pairs, the degrees, their signs and inverse square roots -/

set_option maxHeartbeats 4000000 in
theorem s1_sources (Y : Valuation τ sig (Elt Ideal)) :
    StableHlo.after (hostOps0 (F := Ideal)) Y (Proc.devRef .tc main_v3) = Gcn.sources (Y (Proc.devRef .tc main_arg1)) := by
  dsimp only [hostOps0]
  after_results_simp <;> rfl

set_option maxHeartbeats 4000000 in
theorem s1_targets (Y : Valuation τ sig (Elt Ideal)) :
    StableHlo.after (hostOps0 (F := Ideal)) Y (Proc.devRef .tc main_v6) = Gcn.targets (Y (Proc.devRef .tc main_arg1)) := by
  dsimp only [hostOps0]
  after_results_simp <;> rfl

set_option maxHeartbeats 4000000 in
theorem s1_positive (Y : Valuation τ sig (Elt Ideal)) :
    StableHlo.after (hostOps0 (F := Ideal)) Y (Proc.devRef .tc main_v12) = Gcn.positive (F := Ideal) (Gcn.targets (Y (Proc.devRef .tc main_arg1))) := by
  dsimp only [hostOps0]
  after_results_simp <;> rfl

set_option maxHeartbeats 4000000 in
theorem s1_invRoot (Y : Valuation τ sig (Elt Ideal)) :
    StableHlo.after (hostOps0 (F := Ideal)) Y (Proc.devRef .tc main_v13) = Gcn.invRoot (F := Ideal) (Gcn.targets (Y (Proc.devRef .tc main_arg1))) := by
  dsimp only [hostOps0]
  after_results_simp <;> rfl

set_option maxHeartbeats 4000000 in
theorem s1_zero (Y : Valuation τ sig (Elt Ideal)) :
    StableHlo.after (hostOps0 (F := Ideal)) Y (Proc.devRef .tc main_cst_2) = constant (F := Ideal) Gcn.SScalar .f32 0x00000000#32 := by
  dsimp only [hostOps0]
  after_results_simp <;> rfl

/-- Stretch 1 writes no argument. -/
theorem s1_kept (Y : Valuation τ sig (Elt Ideal)) :
    StableHlo.after (hostOps0 (F := Ideal)) Y (Proc.devRef .tc main_arg0) = Y (Proc.devRef .tc main_arg0)
    ∧ StableHlo.after (hostOps0 (F := Ideal)) Y (Proc.devRef .tc main_arg2) = Y (Proc.devRef .tc main_arg2)
    ∧ StableHlo.after (hostOps0 (F := Ideal)) Y (Proc.devRef .tc main_arg3) = Y (Proc.devRef .tc main_arg3)
    ∧ StableHlo.after (hostOps0 (F := Ideal)) Y (Proc.devRef .tc main_arg4) = Y (Proc.devRef .tc main_arg4)
    ∧ StableHlo.after (hostOps0 (F := Ideal)) Y (Proc.devRef .tc main_arg5) = Y (Proc.devRef .tc main_arg5) := by
  refine ⟨?_, ?_, ?_, ?_, ?_⟩ <;> not_written

/-! ## Stretch 2: a node's weight -/

set_option maxHeartbeats 4000000 in
theorem s2_weight (Y : Valuation τ sig (Elt Ideal)) :
    StableHlo.after (hostOps0_1 (F := Ideal)) Y (Proc.devRef .tc main_v14)
      = select (Y (Proc.devRef .tc main_v12)) (Y (Proc.devRef .tc main_v13)) (broadcastInDim Gcn.SNodes ![] (by decide) (id (Y (Proc.devRef .tc main_cst_2)))) := by
  dsimp only [hostOps0_1]
  after_results_simp <;> rfl

/-- Stretch 2 writes neither the pairs nor an argument. -/
theorem s2_kept (Y : Valuation τ sig (Elt Ideal)) :
    StableHlo.after (hostOps0_1 (F := Ideal)) Y (Proc.devRef .tc main_v3) = Y (Proc.devRef .tc main_v3)
    ∧ StableHlo.after (hostOps0_1 (F := Ideal)) Y (Proc.devRef .tc main_v6) = Y (Proc.devRef .tc main_v6)
    ∧ StableHlo.after (hostOps0_1 (F := Ideal)) Y (Proc.devRef .tc main_arg0) = Y (Proc.devRef .tc main_arg0)
    ∧ StableHlo.after (hostOps0_1 (F := Ideal)) Y (Proc.devRef .tc main_arg2) = Y (Proc.devRef .tc main_arg2)
    ∧ StableHlo.after (hostOps0_1 (F := Ideal)) Y (Proc.devRef .tc main_arg3) = Y (Proc.devRef .tc main_arg3)
    ∧ StableHlo.after (hostOps0_1 (F := Ideal)) Y (Proc.devRef .tc main_arg4) = Y (Proc.devRef .tc main_arg4)
    ∧ StableHlo.after (hostOps0_1 (F := Ideal)) Y (Proc.devRef .tc main_arg5) = Y (Proc.devRef .tc main_arg5) := by
  refine ⟨?_, ?_, ?_, ?_, ?_, ?_, ?_⟩ <;> not_written

/-! ## Stretch 3: the pairs' weights -/

set_option maxHeartbeats 4000000 in
theorem s3_weights (Y : Valuation τ sig (Elt Ideal)) :
    StableHlo.after (hostOps0_2 (F := Ideal)) Y (Proc.devRef .tc main_v29)
      = (mulf (Host.gather Gcn.fromNodes (Y (Proc.devRef .tc main_v14)) (Gcn.rowsOf (Y (Proc.devRef .tc main_v3))))
          (Host.gather Gcn.fromNodes (Y (Proc.devRef .tc main_v14)) (Gcn.rowsOf (Y (Proc.devRef .tc main_v6)))) : FVec Ideal Gcn.SPairs .f32) := by
  dsimp only [hostOps0_2]
  after_results_simp <;> rfl

/-- Stretch 3 writes neither the pairs nor an argument. -/
theorem s3_kept (Y : Valuation τ sig (Elt Ideal)) :
    StableHlo.after (hostOps0_2 (F := Ideal)) Y (Proc.devRef .tc main_v3) = Y (Proc.devRef .tc main_v3)
    ∧ StableHlo.after (hostOps0_2 (F := Ideal)) Y (Proc.devRef .tc main_v6) = Y (Proc.devRef .tc main_v6)
    ∧ StableHlo.after (hostOps0_2 (F := Ideal)) Y (Proc.devRef .tc main_arg0) = Y (Proc.devRef .tc main_arg0)
    ∧ StableHlo.after (hostOps0_2 (F := Ideal)) Y (Proc.devRef .tc main_arg2) = Y (Proc.devRef .tc main_arg2)
    ∧ StableHlo.after (hostOps0_2 (F := Ideal)) Y (Proc.devRef .tc main_arg3) = Y (Proc.devRef .tc main_arg3)
    ∧ StableHlo.after (hostOps0_2 (F := Ideal)) Y (Proc.devRef .tc main_arg4) = Y (Proc.devRef .tc main_arg4)
    ∧ StableHlo.after (hostOps0_2 (F := Ideal)) Y (Proc.devRef .tc main_arg5) = Y (Proc.devRef .tc main_arg5) := by
  refine ⟨?_, ?_, ?_, ?_, ?_, ?_, ?_⟩ <;> not_written

/-! ## Stretch 4: aggregate and add the bias row -/

set_option maxHeartbeats 4000000 in
theorem s4_preAct (Y : Valuation τ sig (Elt Ideal)) :
    StableHlo.after (hostOps1 (F := Ideal)) Y (Proc.devRef .tc main_v46)
      = Gcn.preAct1 (F := Ideal) (Y (Proc.devRef .tc main_v30)) (Y (Proc.devRef .tc main_v3)) (Y (Proc.devRef .tc main_v6)) (Y (Proc.devRef .tc main_v29)) (Y (Proc.devRef .tc main_arg3)) := by
  dsimp only [hostOps1]
  after_results_simp <;> rfl

/-- Stretch 4 writes neither the pairs, nor their weights, nor a later argument. -/
theorem s4_kept (Y : Valuation τ sig (Elt Ideal)) :
    StableHlo.after (hostOps1 (F := Ideal)) Y (Proc.devRef .tc main_v3) = Y (Proc.devRef .tc main_v3)
    ∧ StableHlo.after (hostOps1 (F := Ideal)) Y (Proc.devRef .tc main_v6) = Y (Proc.devRef .tc main_v6)
    ∧ StableHlo.after (hostOps1 (F := Ideal)) Y (Proc.devRef .tc main_v29) = Y (Proc.devRef .tc main_v29)
    ∧ StableHlo.after (hostOps1 (F := Ideal)) Y (Proc.devRef .tc main_arg4) = Y (Proc.devRef .tc main_arg4)
    ∧ StableHlo.after (hostOps1 (F := Ideal)) Y (Proc.devRef .tc main_arg5) = Y (Proc.devRef .tc main_arg5) := by
  refine ⟨?_, ?_, ?_, ?_, ?_⟩ <;> not_written

/-! ## Stretch 5: the maximum with 0 -/

set_option maxHeartbeats 4000000 in
theorem s5_relu (Y : Valuation τ sig (Elt Ideal)) :
    StableHlo.after (hostOps1_1 (F := Ideal)) Y (Proc.devRef .tc main_v47)
      = maximumf (Y (Proc.devRef .tc main_v46)) (broadcastInDim Gcn.SNodes128 ![] (by decide) (constant (F := Ideal) Gcn.SScalar .f32 0x00000000#32)) := by
  dsimp only [hostOps1_1]
  after_results_simp <;> rfl

/-- Stretch 5 writes neither the pairs, nor their weights, nor a later argument. -/
theorem s5_kept (Y : Valuation τ sig (Elt Ideal)) :
    StableHlo.after (hostOps1_1 (F := Ideal)) Y (Proc.devRef .tc main_v3) = Y (Proc.devRef .tc main_v3)
    ∧ StableHlo.after (hostOps1_1 (F := Ideal)) Y (Proc.devRef .tc main_v6) = Y (Proc.devRef .tc main_v6)
    ∧ StableHlo.after (hostOps1_1 (F := Ideal)) Y (Proc.devRef .tc main_v29) = Y (Proc.devRef .tc main_v29)
    ∧ StableHlo.after (hostOps1_1 (F := Ideal)) Y (Proc.devRef .tc main_arg4) = Y (Proc.devRef .tc main_arg4)
    ∧ StableHlo.after (hostOps1_1 (F := Ideal)) Y (Proc.devRef .tc main_arg5) = Y (Proc.devRef .tc main_arg5) := by
  refine ⟨?_, ?_, ?_, ?_, ?_⟩ <;> not_written

/-! ## Stretch 6: the second layer -/

set_option maxHeartbeats 4000000 in
theorem s6_layer2 (Y : Valuation τ sig (Elt Ideal)) :
    StableHlo.after (hostOps2 (F := Ideal)) Y (Proc.devRef .tc main_v64)
      = Gcn.layer2 (F := Ideal) (Y (Proc.devRef .tc main_v48)) (Y (Proc.devRef .tc main_v3)) (Y (Proc.devRef .tc main_v6)) (Y (Proc.devRef .tc main_v29)) (Y (Proc.devRef .tc main_arg5)) := by
  dsimp only [hostOps2]
  after_results_simp <;> rfl

end Cert.KernelIdeal.Stages

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.LibRowBlock.lean ====
/-
  A block of rows of a matrix product.

  Cut an [M, K] matrix `X` into blocks of `B` consecutive rows.  Row `p` of the block that starts at row `r - p`
  is row `r` of `X`; so the product of that block with a [K, N] matrix `W`, at (p, q), is the product of the whole
  of `X` with `W` at (r, q): both are the sum over `k : Fin K` of `X (r, k) * W (k, q)`.  Over the extended reals
  this holds for the matrix unit's product into a zero accumulator on the block's side and the host's
  `dot_general` on the whole matrix's side, whatever the operands' float formats.  Generic in every extent.
-/
import proofs.«103256_j5394478924400_1_alg».proof.Proof.LibPlainDot

noncomputable section

namespace LibRowBlock

open Idealize.ShloMosaic Idealize.ShloMosaic.ValueIdx

variable {M B K N : Nat}

/-- The block's product at (p, q) is the whole product at (r, q), when the block's row `p` is `X`'s row `r` and the
    block's right operand is `W` down column `q`. -/
theorem block_product {φ₁ φ₂ ψ₁ ψ₂ : FTy} (prec prec' : Option ContractPrecision) (sched : HostSchedule)
    (X : FVec Ideal ⟨2, ![M, K]⟩ ψ₁) (W : FVec Ideal ⟨2, ![K, N]⟩ ψ₂)
    (xb : FVec Ideal ⟨2, ![B, K]⟩ φ₁) (wb : FVec Ideal ⟨2, ![K, N]⟩ φ₂)
    (p : Fin B) (r : Fin M) (q : Fin N)
    (hx : ∀ k : Fin K, xb (ix2 p k) = X (ix2 r k)) (hw : ∀ k : Fin K, wb (ix2 k q) = W (ix2 k q)) :
    FloatOps.matmul (DotDims.plain B K N) prec xb wb (constant ⟨2, ![B, N]⟩ .f32 0x00000000#32) (ix2 p q)
      = FloatOps.dotGeneral (DotDims.plain M K N) prec' sched X W (ix2 r q) := by
  rw [LibPlainDot.matmul_zero_apply, LibPlainDot.dotGeneral_apply]
  exact Finset.sum_congr rfl fun k _ => by rw [hx k, hw k]

end LibRowBlock

end
-- ==== Proof.Product0.lean ====
/-
  The array the first blocked product leaves is the whole product.

  The [100000, 128] left operand is cut into ten blocks of 10000 consecutive rows; grid point `t` multiplies block `t`
  by the whole [128, 128] right operand (which every point reads at block index 0) and writes the [10000, 128] result back as
  block `t` of the output. Row `p` of block `t` is row `t · 10000 + p` of the operand, and an entry of a matrix
  product depends on one row of the left operand only, so what point `t` writes back is block `t` of the product of the
  WHOLE operands. The ten blocks tile the 100000 rows (row `r` lies in block `r / 10000`), so the output array ends
  holding exactly that product. Rounding the operands to bf16 on the way in is the identity on the extended reals.
  All of this for ANY contents `V` the region is entered at.
-/
import proofs.«103256_j5394478924400_1_alg».proof.Proof.Gen.KernelIdeal.Frame
import proofs.«103256_j5394478924400_1_alg».proof.Proof.LibRowBlock
import Idealize.ShloMosaic.Lib.Pipeline.Value
import Idealize.ShloMosaic.Lib.ValueIdx

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The product of the whole operands. -/
def whole (x : FVec Ideal S100000x128 .f32) (w : FVec Ideal S128x128 .f32) : FVec Ideal S100000x128 .f32 :=
  Host.dotGeneral (DotDims.plain 100000 128 128) none x w

theorem origin : (![0, 0] : Fin 2 → Nat) = fun _ => 0 := funext fun a => by fin_cases a <;> rfl

/-- The index maps over the ten grid points: the left operand's block moves with the output's down the rows, the right
    operand stays at block 0, no window moves along the columns, and the output's row block index is at most 9. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten row blocks is some point's. -/
theorem index_onto : ∀ b : Fin 10, ∃ t : Fin cfg0.N, win0_2.index t = ![b.val, 0] :=
  (by decide +kernel : ∀ b : Fin 10, ∃ t : Fin grid0.N, win0_2.index t = ![b.val, 0])

/-- The body's value at an entry: row `p` of a block times column `q`, when the block's row `p` is row `r` of `X`. -/
theorem body_entry (X : FVec Ideal S100000x128 .f32) (W : FVec Ideal S128x128 .f32)
    (x0 : Vec Ideal S10000x128 .f32) (x1 : Vec Ideal S128x128 .f32) (p : Fin 10000) (q : Fin 128) (r : Fin 100000)
    (hx : ∀ k : Fin 128, x0 (ix2 p k) = X (ix2 r k)) (hw : ∀ k : Fin 128, x1 (ix2 k q) = W (ix2 k q)) :
    k0_pay1 x0 x1 (ix2 p q) = whole X W (ix2 r q) :=
  LibRowBlock.block_product (M := 100000) (B := 10000) (K := 128) (N := 128) none none .single X W
    (truncf .bf16 x0 bitsLt_bf16_f32) (truncf .bf16 x1 bitsLt_bf16_f32) p r q hx hw

/-- Row `p` of the left operand's block at point `t` is the row of the array that many below the block's first. -/
theorem left_block (c : Dev nD) (t : Fin cfg0.N) (p : Fin 10000) (k : Fin 128) (r : Fin 100000)
    (hr : r.val = win0_2.index t (0 : Fin 2) * 10000 + p.val) :
    iblk0 V c 0 t (ix2 p k) = V c main_arg0 (ix2 r k) := by
  obtain ⟨e0, e1, e2, e3, e4, e5⟩ := index_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The right operand's block at any point is the whole right operand. -/
theorem right_block (c : Dev nD) (t : Fin cfg0.N) (k : Fin 128) (q : Fin 128) :
    iblk0 V c 1 t (ix2 k q) = V c main_arg2 (ix2 k q) := by
  obtain ⟨e0, e1, e2, e3, e4, e5⟩ := index_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The body's value at entry (p, q) of point `t`'s block is the whole product at that entry's place in the array. -/
theorem block_entry (c : Dev nD) (t : Fin cfg0.N) (p : Fin 10000) (q : Fin 128) :
    k0_pay1 (iblk0 V c 0 t) (iblk0 V c 1 t) (ix2 p q)
      = whole (V c main_arg0) (V c main_arg2) (((cfg0.win 2).blk t).view.emb (ix2 p q)) := by
  obtain ⟨e0, e1, e2, e3, e4, e5⟩ := index_facts t
  have hr : win0_2.index t (0 : Fin 2) * 10000 + p.val < 100000 := by have := p.isLt; omega
  refine (body_entry (V c main_arg0) (V c main_arg2) (iblk0 V c 0 t) (iblk0 V c 1 t) p q ⟨_, hr⟩
    (fun k => left_block V c t p k ⟨_, hr⟩ rfl) (fun k => right_block V c t k q)).trans ?_
  refine congrArg (whole (V c main_arg0) (V c main_arg2)) (funext fun a => Fin.ext ?_)
  match a with
  | ⟨0, _⟩ => show win0_2.index t (0 : Fin 2) * 10000 + p.val = win0_2.index t (0 : Fin 2) * 10000 + 1 * p.val; omega
  | ⟨1, _⟩ => show q.val = win0_2.index t (1 : Fin 2) * 128 + 1 * q.val; omega

/-- What point `t` writes back is block `t` of the whole product. -/
theorem flushed_eq (c : Dev nD) (t : Fin cfg0.N) :
    (dat0 (F := Ideal) V c).flushed 2 t
      = ((cfg0.win 2).blk t).view.read (Elt Ideal) (whole (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S10000x128) origin, View.ld_unit_zero (S := S128x128) origin]
  funext j
  obtain ⟨p, q, rfl⟩ : ∃ (p : Fin 10000) (q : Fin 128), j = ix2 p q := ⟨j 0, j 1, eq_ix2 j⟩
  exact block_entry V c t p q

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Every index of the output array is in some point's block: row `r` in block `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the ten points the output array holds the product of the whole operands as the region found them. -/
theorem array_eq (c : Dev nD) :
    (dat0 (F := Ideal) V c).arrAt 2 cfg0.N = whole (V c main_arg0) (V c main_arg2) :=
  (dat0 (F := Ideal) V c).arrAt_eq_of_cover 2 (whole (V c main_arg0) (V c main_arg2))
    (fun t _ => flushed_eq V c t) covered

end Cert.KernelIdeal.Product0

end
-- ==== Proof.Product1.lean ====
/-
  The array the second blocked product leaves is the whole product.

  The [100000, 128] left operand is cut into ten blocks of 10000 consecutive rows; grid point `t` multiplies block `t`
  by the whole [128, 64] right operand (which every point reads at block index 0) and writes the [10000, 64] result back as
  block `t` of the output. Row `p` of block `t` is row `t · 10000 + p` of the operand, and an entry of a matrix
  product depends on one row of the left operand only, so what point `t` writes back is block `t` of the product of the
  WHOLE operands. The ten blocks tile the 100000 rows (row `r` lies in block `r / 10000`), so the output array ends
  holding exactly that product. Rounding the operands to bf16 on the way in is the identity on the extended reals.
  All of this for ANY contents `V` the region is entered at.
-/
import proofs.«103256_j5394478924400_1_alg».proof.Proof.Gen.KernelIdeal.Frame
import proofs.«103256_j5394478924400_1_alg».proof.Proof.LibRowBlock
import Idealize.ShloMosaic.Lib.Pipeline.Value
import Idealize.ShloMosaic.Lib.ValueIdx

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The product of the whole operands. -/
def whole (x : FVec Ideal S100000x128 .f32) (w : FVec Ideal S128x64 .f32) : FVec Ideal S100000x64 .f32 :=
  Host.dotGeneral (DotDims.plain 100000 128 64) none x w

theorem origin : (![0, 0] : Fin 2 → Nat) = fun _ => 0 := funext fun a => by fin_cases a <;> rfl

/-- The index maps over the ten grid points: the left operand's block moves with the output's down the rows, the right
    operand stays at block 0, no window moves along the columns, and the output's row block index is at most 9. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Each of the ten row blocks is some point's. -/
theorem index_onto : ∀ b : Fin 10, ∃ t : Fin cfg1.N, win1_2.index t = ![b.val, 0] :=
  (by decide +kernel : ∀ b : Fin 10, ∃ t : Fin grid1.N, win1_2.index t = ![b.val, 0])

/-- The body's value at an entry: row `p` of a block times column `q`, when the block's row `p` is row `r` of `X`. -/
theorem body_entry (X : FVec Ideal S100000x128 .f32) (W : FVec Ideal S128x64 .f32)
    (x0 : Vec Ideal S10000x128 .f32) (x1 : Vec Ideal S128x64 .f32) (p : Fin 10000) (q : Fin 64) (r : Fin 100000)
    (hx : ∀ k : Fin 128, x0 (ix2 p k) = X (ix2 r k)) (hw : ∀ k : Fin 128, x1 (ix2 k q) = W (ix2 k q)) :
    k1_pay1 x0 x1 (ix2 p q) = whole X W (ix2 r q) :=
  LibRowBlock.block_product (M := 100000) (B := 10000) (K := 128) (N := 64) none none .single X W
    (truncf .bf16 (shapeCast S10000x128 x0 shapeCasts_S10000x128_S10000x128) bitsLt_bf16_f32) (truncf .bf16 x1 bitsLt_bf16_f32) p r q (fun k => (congrFun (shapeCast_self x0 shapeCasts_S10000x128_S10000x128) (ix2 p k)).trans (hx k)) hw

/-- Row `p` of the left operand's block at point `t` is the row of the array that many below the block's first. -/
theorem left_block (c : Dev nD) (t : Fin cfg1.N) (p : Fin 10000) (k : Fin 128) (r : Fin 100000)
    (hr : r.val = win1_2.index t (0 : Fin 2) * 10000 + p.val) :
    iblk1 V c 0 t (ix2 p k) = V c main_v47 (ix2 r k) := by
  obtain ⟨e0, e1, e2, e3, e4, e5⟩ := index_facts t
  show V c main_v47 (((cfg1.win 0).blk t).view.emb (ix2 p k)) = V c main_v47 (ix2 r k)
  refine congrArg (V c main_v47) (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- The right operand's block at any point is the whole right operand. -/
theorem right_block (c : Dev nD) (t : Fin cfg1.N) (k : Fin 128) (q : Fin 64) :
    iblk1 V c 1 t (ix2 k q) = V c main_arg4 (ix2 k q) := by
  obtain ⟨e0, e1, e2, e3, e4, e5⟩ := index_facts t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 128 + 1 * k.val = k.val; omega
  | ⟨1, _⟩ => show win1_1.index t (1 : Fin 2) * 64 + 1 * q.val = q.val; omega

/-- The body's value at entry (p, q) of point `t`'s block is the whole product at that entry's place in the array. -/
theorem block_entry (c : Dev nD) (t : Fin cfg1.N) (p : Fin 10000) (q : Fin 64) :
    k1_pay1 (iblk1 V c 0 t) (iblk1 V c 1 t) (ix2 p q)
      = whole (V c main_v47) (V c main_arg4) (((cfg1.win 2).blk t).view.emb (ix2 p q)) := by
  obtain ⟨e0, e1, e2, e3, e4, e5⟩ := index_facts t
  have hr : win1_2.index t (0 : Fin 2) * 10000 + p.val < 100000 := by have := p.isLt; omega
  refine (body_entry (V c main_v47) (V c main_arg4) (iblk1 V c 0 t) (iblk1 V c 1 t) p q ⟨_, hr⟩
    (fun k => left_block V c t p k ⟨_, hr⟩ rfl) (fun k => right_block V c t k q)).trans ?_
  refine congrArg (whole (V c main_v47) (V c main_arg4)) (funext fun a => Fin.ext ?_)
  match a with
  | ⟨0, _⟩ => show win1_2.index t (0 : Fin 2) * 10000 + p.val = win1_2.index t (0 : Fin 2) * 10000 + 1 * p.val; omega
  | ⟨1, _⟩ => show q.val = win1_2.index t (1 : Fin 2) * 64 + 1 * q.val; omega

/-- What point `t` writes back is block `t` of the whole product. -/
theorem flushed_eq (c : Dev nD) (t : Fin cfg1.N) :
    (dat1 (F := Ideal) V c).flushed 2 t
      = ((cfg1.win 2).blk t).view.read (Elt Ideal) (whole (V c main_v47) (V c main_arg4)) := by
  show (cfg1.win 2).cut (grid1.coords t) ((dat1 (F := Ideal) V c).after 2 t) = _
  rw [after1_2]
  unfold out1_2
  rw [View.canon_unit_zero origin]
  simp only [View.ld_unit_zero (S := S10000x128) origin, View.ld_unit_zero (S := S128x64) origin]
  funext j
  obtain ⟨p, q, rfl⟩ : ∃ (p : Fin 10000) (q : Fin 64), j = ix2 p q := ⟨j 0, j 1, eq_ix2 j⟩
  exact block_entry V c t p q

/-- An index of the output array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v48).slice (win1_2.rect t)).set ↔ _
  rw [View.set_slice_whole, Rect.mem_set_unit]
  exact Iff.rfl

/-- Every index of the output array is in some point's block: row `r` in block `r / 10000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- After the ten points the output array holds the product of the whole operands as the region found them. -/
theorem array_eq (c : Dev nD) :
    (dat1 (F := Ideal) V c).arrAt 2 cfg1.N = whole (V c main_v47) (V c main_arg4) :=
  (dat1 (F := Ideal) V c).arrAt_eq_of_cover 2 (whole (V c main_v47) (V c main_arg4))
    (fun t _ => flushed_eq V c t) covered

end Cert.KernelIdeal.Product1

end
-- ==== Proof.KernelRead.lean ====
/-
  The idealized kernel program's result as a function of its arguments.

  The contents at each of @main's nine boundaries are a fold: a host stretch applies its operations to what it finds,
  a blocked product leaves its output array at the whole product of its operands (Product0, Product1) and every
  other buffer as it found it. Walking back from the result buffer at the last boundary — second layer, second
  product, maximum with 0, aggregate-and-bias, first product, the pairs' weights, a node's weight, the pairs —
  every buffer read is either the previous stretch's result or a buffer carried unchanged from where it was
  written, down to the arguments as launched. What comes out is the network of the arguments.
-/
import proofs.«103256_j5394478924400_1_alg».proof.Proof.Gen.KernelIdeal.Frame
import proofs.«103256_j5394478924400_1_alg».proof.Proof.Spec
import proofs.«103256_j5394478924400_1_alg».proof.Proof.KernelStages
import proofs.«103256_j5394478924400_1_alg».proof.Proof.Product0
import proofs.«103256_j5394478924400_1_alg».proof.Proof.Product1

set_option maxRecDepth 16384

noncomputable section

namespace Cert.KernelIdeal.Read

open Cert.KernelIdeal Cert.KernelIdeal.Gen Cert.KernelIdeal.Stages
open Idealize.ShloMosaic Idealize.ShloMosaic.TcCoe Idealize.ShloMosaic.StableHlo Idealize.SL.Sem

variable (m : (ℓ : Loc nD τ sig) → Buf (Elt Ideal) ℓ) (ρ : Dev nD → PrngReg)

set_option maxHeartbeats 4000000 in
/-- The result buffer at the last boundary is the network of the arguments as launched. -/
theorem result_eq (c : Dev nD) :
    W8 m ρ c (Proc.devRef .tc main_v64)
      = Gcn.network (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h8 : W8 m ρ c (Proc.devRef .tc main_v64) = Gcn.layer2 (F := Ideal) (W7 m ρ c (Proc.devRef .tc main_v48)) (W7 m ρ c (Proc.devRef .tc main_v3)) (W7 m ρ c (Proc.devRef .tc main_v6)) (W7 m ρ c (Proc.devRef .tc main_v29)) (W7 m ρ c (Proc.devRef .tc main_arg5)) := s6_layer2 (W7 m ρ c)
  have e48 : W7 m ρ c (Proc.devRef .tc main_v48) = Product1.whole (W6 m ρ c (Proc.devRef .tc main_v47)) (W6 m ρ c (Proc.devRef .tc main_arg4)) := (W7_arr m ρ c 2).trans (Product1.array_eq (V6 m ρ) c)
  have e7_v3 : W7 m ρ c (Proc.devRef .tc main_v3) = W6 m ρ c (Proc.devRef .tc main_v3) := W7_of_ne m ρ c main_v3 (by decide)
  have e7_v6 : W7 m ρ c (Proc.devRef .tc main_v6) = W6 m ρ c (Proc.devRef .tc main_v6) := W7_of_ne m ρ c main_v6 (by decide)
  have e7_v29 : W7 m ρ c (Proc.devRef .tc main_v29) = W6 m ρ c (Proc.devRef .tc main_v29) := W7_of_ne m ρ c main_v29 (by decide)
  have e7_arg5 : W7 m ρ c (Proc.devRef .tc main_arg5) = W6 m ρ c (Proc.devRef .tc main_arg5) := W7_of_ne m ρ c main_arg5 (by decide)
  have u47 : W6 m ρ c (Proc.devRef .tc main_v47) = maximumf (W5 m ρ c (Proc.devRef .tc main_v46)) (broadcastInDim Gcn.SNodes128 ![] (by decide) (constant (F := Ideal) Gcn.SScalar .f32 0x00000000#32)) := s5_relu (W5 m ρ c)
  have u_v3 : W6 m ρ c (Proc.devRef .tc main_v3) = W5 m ρ c (Proc.devRef .tc main_v3) := (s5_kept (W5 m ρ c)).1
  have u_v6 : W6 m ρ c (Proc.devRef .tc main_v6) = W5 m ρ c (Proc.devRef .tc main_v6) := (s5_kept (W5 m ρ c)).2.1
  have u_v29 : W6 m ρ c (Proc.devRef .tc main_v29) = W5 m ρ c (Proc.devRef .tc main_v29) := (s5_kept (W5 m ρ c)).2.2.1
  have u_arg4 : W6 m ρ c (Proc.devRef .tc main_arg4) = W5 m ρ c (Proc.devRef .tc main_arg4) := (s5_kept (W5 m ρ c)).2.2.2.1
  have u_arg5 : W6 m ρ c (Proc.devRef .tc main_arg5) = W5 m ρ c (Proc.devRef .tc main_arg5) := (s5_kept (W5 m ρ c)).2.2.2.2
  have t46 : W5 m ρ c (Proc.devRef .tc main_v46) = Gcn.preAct1 (F := Ideal) (W4 m ρ c (Proc.devRef .tc main_v30)) (W4 m ρ c (Proc.devRef .tc main_v3)) (W4 m ρ c (Proc.devRef .tc main_v6)) (W4 m ρ c (Proc.devRef .tc main_v29)) (W4 m ρ c (Proc.devRef .tc main_arg3)) := s4_preAct (W4 m ρ c)
  have t_v3 : W5 m ρ c (Proc.devRef .tc main_v3) = W4 m ρ c (Proc.devRef .tc main_v3) := (s4_kept (W4 m ρ c)).1
  have t_v6 : W5 m ρ c (Proc.devRef .tc main_v6) = W4 m ρ c (Proc.devRef .tc main_v6) := (s4_kept (W4 m ρ c)).2.1
  have t_v29 : W5 m ρ c (Proc.devRef .tc main_v29) = W4 m ρ c (Proc.devRef .tc main_v29) := (s4_kept (W4 m ρ c)).2.2.1
  have t_arg4 : W5 m ρ c (Proc.devRef .tc main_arg4) = W4 m ρ c (Proc.devRef .tc main_arg4) := (s4_kept (W4 m ρ c)).2.2.2.1
  have t_arg5 : W5 m ρ c (Proc.devRef .tc main_arg5) = W4 m ρ c (Proc.devRef .tc main_arg5) := (s4_kept (W4 m ρ c)).2.2.2.2
  have e30 : W4 m ρ c (Proc.devRef .tc main_v30) = Product0.whole (W3 m ρ c (Proc.devRef .tc main_arg0)) (W3 m ρ c (Proc.devRef .tc main_arg2)) := (W4_arr m ρ c 2).trans (Product0.array_eq (V3 m ρ) c)
  have e4_v3 : W4 m ρ c (Proc.devRef .tc main_v3) = W3 m ρ c (Proc.devRef .tc main_v3) := W4_of_ne m ρ c main_v3 (by decide)
  have e4_v6 : W4 m ρ c (Proc.devRef .tc main_v6) = W3 m ρ c (Proc.devRef .tc main_v6) := W4_of_ne m ρ c main_v6 (by decide)
  have e4_v29 : W4 m ρ c (Proc.devRef .tc main_v29) = W3 m ρ c (Proc.devRef .tc main_v29) := W4_of_ne m ρ c main_v29 (by decide)
  have e4_arg3 : W4 m ρ c (Proc.devRef .tc main_arg3) = W3 m ρ c (Proc.devRef .tc main_arg3) := W4_of_ne m ρ c main_arg3 (by decide)
  have e4_arg4 : W4 m ρ c (Proc.devRef .tc main_arg4) = W3 m ρ c (Proc.devRef .tc main_arg4) := W4_of_ne m ρ c main_arg4 (by decide)
  have e4_arg5 : W4 m ρ c (Proc.devRef .tc main_arg5) = W3 m ρ c (Proc.devRef .tc main_arg5) := W4_of_ne m ρ c main_arg5 (by decide)
  have r29 : W3 m ρ c (Proc.devRef .tc main_v29) = (mulf (Host.gather Gcn.fromNodes (W2 m ρ c (Proc.devRef .tc main_v14)) (Gcn.rowsOf (W2 m ρ c (Proc.devRef .tc main_v3)))) (Host.gather Gcn.fromNodes (W2 m ρ c (Proc.devRef .tc main_v14)) (Gcn.rowsOf (W2 m ρ c (Proc.devRef .tc main_v6)))) : FVec Ideal Gcn.SPairs .f32) := s3_weights (W2 m ρ c)
  have r_v3 : W3 m ρ c (Proc.devRef .tc main_v3) = W2 m ρ c (Proc.devRef .tc main_v3) := (s3_kept (W2 m ρ c)).1
  have r_v6 : W3 m ρ c (Proc.devRef .tc main_v6) = W2 m ρ c (Proc.devRef .tc main_v6) := (s3_kept (W2 m ρ c)).2.1
  have r_arg0 : W3 m ρ c (Proc.devRef .tc main_arg0) = W2 m ρ c (Proc.devRef .tc main_arg0) := (s3_kept (W2 m ρ c)).2.2.1
  have r_arg2 : W3 m ρ c (Proc.devRef .tc main_arg2) = W2 m ρ c (Proc.devRef .tc main_arg2) := (s3_kept (W2 m ρ c)).2.2.2.1
  have r_arg3 : W3 m ρ c (Proc.devRef .tc main_arg3) = W2 m ρ c (Proc.devRef .tc main_arg3) := (s3_kept (W2 m ρ c)).2.2.2.2.1
  have r_arg4 : W3 m ρ c (Proc.devRef .tc main_arg4) = W2 m ρ c (Proc.devRef .tc main_arg4) := (s3_kept (W2 m ρ c)).2.2.2.2.2.1
  have r_arg5 : W3 m ρ c (Proc.devRef .tc main_arg5) = W2 m ρ c (Proc.devRef .tc main_arg5) := (s3_kept (W2 m ρ c)).2.2.2.2.2.2
  have q14 : W2 m ρ c (Proc.devRef .tc main_v14) = select (W1 m ρ c (Proc.devRef .tc main_v12)) (W1 m ρ c (Proc.devRef .tc main_v13)) (broadcastInDim Gcn.SNodes ![] (by decide) (id (W1 m ρ c (Proc.devRef .tc main_cst_2)))) := s2_weight (W1 m ρ c)
  have q_v3 : W2 m ρ c (Proc.devRef .tc main_v3) = W1 m ρ c (Proc.devRef .tc main_v3) := (s2_kept (W1 m ρ c)).1
  have q_v6 : W2 m ρ c (Proc.devRef .tc main_v6) = W1 m ρ c (Proc.devRef .tc main_v6) := (s2_kept (W1 m ρ c)).2.1
  have q_arg0 : W2 m ρ c (Proc.devRef .tc main_arg0) = W1 m ρ c (Proc.devRef .tc main_arg0) := (s2_kept (W1 m ρ c)).2.2.1
  have q_arg2 : W2 m ρ c (Proc.devRef .tc main_arg2) = W1 m ρ c (Proc.devRef .tc main_arg2) := (s2_kept (W1 m ρ c)).2.2.2.1
  have q_arg3 : W2 m ρ c (Proc.devRef .tc main_arg3) = W1 m ρ c (Proc.devRef .tc main_arg3) := (s2_kept (W1 m ρ c)).2.2.2.2.1
  have q_arg4 : W2 m ρ c (Proc.devRef .tc main_arg4) = W1 m ρ c (Proc.devRef .tc main_arg4) := (s2_kept (W1 m ρ c)).2.2.2.2.2.1
  have q_arg5 : W2 m ρ c (Proc.devRef .tc main_arg5) = W1 m ρ c (Proc.devRef .tc main_arg5) := (s2_kept (W1 m ρ c)).2.2.2.2.2.2
  have p12 : W1 m ρ c (Proc.devRef .tc main_v12) = Gcn.positive (F := Ideal) (Gcn.targets (m ((c : Thread nD τ).loc main_arg1))) := s1_positive (W0 m ρ c)
  have p13 : W1 m ρ c (Proc.devRef .tc main_v13) = Gcn.invRoot (F := Ideal) (Gcn.targets (m ((c : Thread nD τ).loc main_arg1))) := s1_invRoot (W0 m ρ c)
  have pz : W1 m ρ c (Proc.devRef .tc main_cst_2) = constant (F := Ideal) Gcn.SScalar .f32 0x00000000#32 := s1_zero (W0 m ρ c)
  have p3 : W1 m ρ c (Proc.devRef .tc main_v3) = Gcn.sources (m ((c : Thread nD τ).loc main_arg1)) := s1_sources (W0 m ρ c)
  have p6 : W1 m ρ c (Proc.devRef .tc main_v6) = Gcn.targets (m ((c : Thread nD τ).loc main_arg1)) := s1_targets (W0 m ρ c)
  have p_arg0 : W1 m ρ c (Proc.devRef .tc main_arg0) = (m ((c : Thread nD τ).loc main_arg0)) := (s1_kept (W0 m ρ c)).1
  have p_arg2 : W1 m ρ c (Proc.devRef .tc main_arg2) = (m ((c : Thread nD τ).loc main_arg2)) := (s1_kept (W0 m ρ c)).2.1
  have p_arg3 : W1 m ρ c (Proc.devRef .tc main_arg3) = (m ((c : Thread nD τ).loc main_arg3)) := (s1_kept (W0 m ρ c)).2.2.1
  have p_arg4 : W1 m ρ c (Proc.devRef .tc main_arg4) = (m ((c : Thread nD τ).loc main_arg4)) := (s1_kept (W0 m ρ c)).2.2.2.1
  have p_arg5 : W1 m ρ c (Proc.devRef .tc main_arg5) = (m ((c : Thread nD τ).loc main_arg5)) := (s1_kept (W0 m ρ c)).2.2.2.2
  rw [h8, e48, e7_v3, e7_v6, e7_v29, e7_arg5, u47, u_v3, u_v6, u_v29, u_arg4, u_arg5, t46, t_v3, t_v6, t_v29, t_arg4, t_arg5, e30, e4_v3, e4_v6, e4_v29, e4_arg3, e4_arg4, e4_arg5, r29, r_v3, r_v6, r_arg0, r_arg2, r_arg3, r_arg4, r_arg5, q14, q_v3, q_v6, q_arg0, q_arg2, q_arg3, q_arg4, q_arg5, p12, p13, pz, p3, p6, p_arg0, p_arg2, p_arg3, p_arg4, p_arg5]
  rfl

end Cert.KernelIdeal.Read

end
-- ==== Proof.RefStages.lean ====
/-
  The idealized reference's host stretches, each read from arbitrary contents.

  @main's host operations fall into six stretches: (1) the pairs, their targets' degrees, where a degree is positive and
  its inverse square root; (2) a node's weight, chosen between the two; (3) the pairs' weights; (4) the first matrix product, then aggregate the
  table over the pairs and add the bias row; (5) the maximum with 0; (6) the second matrix product, then the second layer. Started from ANY contents `Y`
  of the buffers, a stretch leaves in its result buffer one stage of the network applied to the buffers it reads,
  and leaves every buffer it does not write as it was. Nothing here depends on what `Y` is.
-/
import proofs.«103256_j5394478924400_1_alg».proof.Proof.RefRun
import proofs.«103256_j5394478924400_1_alg».proof.Proof.Spec
import Idealize.ShloMosaic.Lib.StableHlo.Run
import Idealize.ShloMosaic.PureOps.Ideal

set_option maxRecDepth 16384

noncomputable section

namespace Cert.ReferenceIdeal.Stages

open Cert.ReferenceIdeal Cert.ReferenceIdeal.Gen Cert.ReferenceIdeal.ValueP
open Idealize.ShloMosaic Idealize.ShloMosaic.TcCoe Idealize.ShloMosaic.StableHlo Idealize.SL.Sem

/-- No operation of the stretch writes the buffer: each operation's one result buffer is another reference. -/
local macro "not_written" : tactic => `(tactic| (
  refine StableHlo.after_of_forall_not_mem _ _ (List.forall_iff_forall_mem.mp ?_)
  simp only [opsA1, opsA2, opsA3, opsB1, opsB2, opsC, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Stretch 1: the pairs, the degrees, their signs and inverse square roots -/

set_option maxHeartbeats 4000000 in
theorem s1_sources (Y : Valuation τ sig (Elt Ideal)) :
    StableHlo.after (opsA1 (F := Ideal)) Y (Proc.devRef .tc main_v3) = Gcn.sources (Y (Proc.devRef .tc main_arg1)) := by
  dsimp only [opsA1]
  after_results_simp <;> rfl

set_option maxHeartbeats 4000000 in
theorem s1_targets (Y : Valuation τ sig (Elt Ideal)) :
    StableHlo.after (opsA1 (F := Ideal)) Y (Proc.devRef .tc main_v6) = Gcn.targets (Y (Proc.devRef .tc main_arg1)) := by
  dsimp only [opsA1]
  after_results_simp <;> rfl

set_option maxHeartbeats 4000000 in
theorem s1_positive (Y : Valuation τ sig (Elt Ideal)) :
    StableHlo.after (opsA1 (F := Ideal)) Y (Proc.devRef .tc main_v12) = Gcn.positive (F := Ideal) (Gcn.targets (Y (Proc.devRef .tc main_arg1))) := by
  dsimp only [opsA1]
  after_results_simp <;> rfl

set_option maxHeartbeats 4000000 in
theorem s1_invRoot (Y : Valuation τ sig (Elt Ideal)) :
    StableHlo.after (opsA1 (F := Ideal)) Y (Proc.devRef .tc main_v13) = Gcn.invRoot (F := Ideal) (Gcn.targets (Y (Proc.devRef .tc main_arg1))) := by
  dsimp only [opsA1]
  after_results_simp <;> rfl

set_option maxHeartbeats 4000000 in
theorem s1_zero (Y : Valuation τ sig (Elt Ideal)) :
    StableHlo.after (opsA1 (F := Ideal)) Y (Proc.devRef .tc main_cst_2) = constant (F := Ideal) Gcn.SScalar .f32 0x00000000#32 := by
  dsimp only [opsA1]
  after_results_simp <;> rfl

/-- Stretch 1 writes no argument. -/
theorem s1_kept (Y : Valuation τ sig (Elt Ideal)) :
    StableHlo.after (opsA1 (F := Ideal)) Y (Proc.devRef .tc main_arg0) = Y (Proc.devRef .tc main_arg0)
    ∧ StableHlo.after (opsA1 (F := Ideal)) Y (Proc.devRef .tc main_arg2) = Y (Proc.devRef .tc main_arg2)
    ∧ StableHlo.after (opsA1 (F := Ideal)) Y (Proc.devRef .tc main_arg3) = Y (Proc.devRef .tc main_arg3)
    ∧ StableHlo.after (opsA1 (F := Ideal)) Y (Proc.devRef .tc main_arg4) = Y (Proc.devRef .tc main_arg4)
    ∧ StableHlo.after (opsA1 (F := Ideal)) Y (Proc.devRef .tc main_arg5) = Y (Proc.devRef .tc main_arg5) := by
  refine ⟨?_, ?_, ?_, ?_, ?_⟩ <;> not_written

/-! ## Stretch 2: a node's weight -/

set_option maxHeartbeats 4000000 in
theorem s2_weight (Y : Valuation τ sig (Elt Ideal)) :
    StableHlo.after (opsA2 (F := Ideal)) Y (Proc.devRef .tc main_v14)
      = select (Y (Proc.devRef .tc main_v12)) (Y (Proc.devRef .tc main_v13)) (broadcastInDim Gcn.SNodes ![] (by decide) (id (Y (Proc.devRef .tc main_cst_2)))) := by
  dsimp only [opsA2]
  after_results_simp <;> rfl

/-- Stretch 2 writes neither the pairs nor an argument. -/
theorem s2_kept (Y : Valuation τ sig (Elt Ideal)) :
    StableHlo.after (opsA2 (F := Ideal)) Y (Proc.devRef .tc main_v3) = Y (Proc.devRef .tc main_v3)
    ∧ StableHlo.after (opsA2 (F := Ideal)) Y (Proc.devRef .tc main_v6) = Y (Proc.devRef .tc main_v6)
    ∧ StableHlo.after (opsA2 (F := Ideal)) Y (Proc.devRef .tc main_arg0) = Y (Proc.devRef .tc main_arg0)
    ∧ StableHlo.after (opsA2 (F := Ideal)) Y (Proc.devRef .tc main_arg2) = Y (Proc.devRef .tc main_arg2)
    ∧ StableHlo.after (opsA2 (F := Ideal)) Y (Proc.devRef .tc main_arg3) = Y (Proc.devRef .tc main_arg3)
    ∧ StableHlo.after (opsA2 (F := Ideal)) Y (Proc.devRef .tc main_arg4) = Y (Proc.devRef .tc main_arg4)
    ∧ StableHlo.after (opsA2 (F := Ideal)) Y (Proc.devRef .tc main_arg5) = Y (Proc.devRef .tc main_arg5) := by
  refine ⟨?_, ?_, ?_, ?_, ?_, ?_, ?_⟩ <;> not_written

/-! ## Stretch 3: the pairs' weights -/

set_option maxHeartbeats 4000000 in
theorem s3_weights (Y : Valuation τ sig (Elt Ideal)) :
    StableHlo.after (opsA3 (F := Ideal)) Y (Proc.devRef .tc main_v29)
      = (mulf (Host.gather Gcn.fromNodes (Y (Proc.devRef .tc main_v14)) (Gcn.rowsOf (Y (Proc.devRef .tc main_v3))))
          (Host.gather Gcn.fromNodes (Y (Proc.devRef .tc main_v14)) (Gcn.rowsOf (Y (Proc.devRef .tc main_v6)))) : FVec Ideal Gcn.SPairs .f32) := by
  dsimp only [opsA3]
  after_results_simp <;> rfl

/-- Stretch 3 writes neither the pairs nor an argument. -/
theorem s3_kept (Y : Valuation τ sig (Elt Ideal)) :
    StableHlo.after (opsA3 (F := Ideal)) Y (Proc.devRef .tc main_v3) = Y (Proc.devRef .tc main_v3)
    ∧ StableHlo.after (opsA3 (F := Ideal)) Y (Proc.devRef .tc main_v6) = Y (Proc.devRef .tc main_v6)
    ∧ StableHlo.after (opsA3 (F := Ideal)) Y (Proc.devRef .tc main_arg0) = Y (Proc.devRef .tc main_arg0)
    ∧ StableHlo.after (opsA3 (F := Ideal)) Y (Proc.devRef .tc main_arg2) = Y (Proc.devRef .tc main_arg2)
    ∧ StableHlo.after (opsA3 (F := Ideal)) Y (Proc.devRef .tc main_arg3) = Y (Proc.devRef .tc main_arg3)
    ∧ StableHlo.after (opsA3 (F := Ideal)) Y (Proc.devRef .tc main_arg4) = Y (Proc.devRef .tc main_arg4)
    ∧ StableHlo.after (opsA3 (F := Ideal)) Y (Proc.devRef .tc main_arg5) = Y (Proc.devRef .tc main_arg5) := by
  refine ⟨?_, ?_, ?_, ?_, ?_, ?_, ?_⟩ <;> not_written

/-! ## Stretch 4: aggregate and add the bias row -/

set_option maxHeartbeats 4000000 in
theorem s4_preAct (Y : Valuation τ sig (Elt Ideal)) :
    StableHlo.after (opsB1 (F := Ideal)) Y (Proc.devRef .tc main_v46)
      = Gcn.preAct1 (F := Ideal) (Gcn.product1 (Y (Proc.devRef .tc main_arg0)) (Y (Proc.devRef .tc main_arg2))) (Y (Proc.devRef .tc main_v3)) (Y (Proc.devRef .tc main_v6)) (Y (Proc.devRef .tc main_v29)) (Y (Proc.devRef .tc main_arg3)) := by
  dsimp only [opsB1]
  after_results_simp <;> rfl

/-- Stretch 4 writes neither the pairs, nor their weights, nor a later argument. -/
theorem s4_kept (Y : Valuation τ sig (Elt Ideal)) :
    StableHlo.after (opsB1 (F := Ideal)) Y (Proc.devRef .tc main_v3) = Y (Proc.devRef .tc main_v3)
    ∧ StableHlo.after (opsB1 (F := Ideal)) Y (Proc.devRef .tc main_v6) = Y (Proc.devRef .tc main_v6)
    ∧ StableHlo.after (opsB1 (F := Ideal)) Y (Proc.devRef .tc main_v29) = Y (Proc.devRef .tc main_v29)
    ∧ StableHlo.after (opsB1 (F := Ideal)) Y (Proc.devRef .tc main_arg4) = Y (Proc.devRef .tc main_arg4)
    ∧ StableHlo.after (opsB1 (F := Ideal)) Y (Proc.devRef .tc main_arg5) = Y (Proc.devRef .tc main_arg5) := by
  refine ⟨?_, ?_, ?_, ?_, ?_⟩ <;> not_written

/-! ## Stretch 5: the maximum with 0 -/

set_option maxHeartbeats 4000000 in
theorem s5_relu (Y : Valuation τ sig (Elt Ideal)) :
    StableHlo.after (opsB2 (F := Ideal)) Y (Proc.devRef .tc main_v47)
      = maximumf (Y (Proc.devRef .tc main_v46)) (broadcastInDim Gcn.SNodes128 ![] (by decide) (constant (F := Ideal) Gcn.SScalar .f32 0x00000000#32)) := by
  dsimp only [opsB2]
  after_results_simp <;> rfl

/-- Stretch 5 writes neither the pairs, nor their weights, nor a later argument. -/
theorem s5_kept (Y : Valuation τ sig (Elt Ideal)) :
    StableHlo.after (opsB2 (F := Ideal)) Y (Proc.devRef .tc main_v3) = Y (Proc.devRef .tc main_v3)
    ∧ StableHlo.after (opsB2 (F := Ideal)) Y (Proc.devRef .tc main_v6) = Y (Proc.devRef .tc main_v6)
    ∧ StableHlo.after (opsB2 (F := Ideal)) Y (Proc.devRef .tc main_v29) = Y (Proc.devRef .tc main_v29)
    ∧ StableHlo.after (opsB2 (F := Ideal)) Y (Proc.devRef .tc main_arg4) = Y (Proc.devRef .tc main_arg4)
    ∧ StableHlo.after (opsB2 (F := Ideal)) Y (Proc.devRef .tc main_arg5) = Y (Proc.devRef .tc main_arg5) := by
  refine ⟨?_, ?_, ?_, ?_, ?_⟩ <;> not_written

/-! ## Stretch 6: the second layer -/

set_option maxHeartbeats 4000000 in
theorem s6_layer2 (Y : Valuation τ sig (Elt Ideal)) :
    StableHlo.after (opsC (F := Ideal)) Y (Proc.devRef .tc main_v64)
      = Gcn.layer2 (F := Ideal) (Gcn.product2 (Y (Proc.devRef .tc main_v47)) (Y (Proc.devRef .tc main_arg4))) (Y (Proc.devRef .tc main_v3)) (Y (Proc.devRef .tc main_v6)) (Y (Proc.devRef .tc main_v29)) (Y (Proc.devRef .tc main_arg5)) := by
  dsimp only [opsC]
  after_results_simp <;> rfl

end Cert.ReferenceIdeal.Stages

end
-- ==== Proof.LibAfterAppend.lean ====
/-
  The contents a device's buffers hold after a line of host operations are a fold over the line, one operation at a
  time. The fold over two lines run one after the other is the fold over the second line started from the contents the
  first line leaves. This lets a long first stretch be carried as one valuation — its results named by separate lemmas —
  while only a short second stretch is read back operation by operation. Generic in the topology, the signature and the
  values.
-/
import Idealize.ShloMosaic.Lib.StableHlo.Run

namespace LibAfterAppend

open Idealize.ShloMosaic Idealize.ShloMosaic.StableHlo

/-- The contents after two stretches of operations are those after the second, from those after the first. -/
theorem after_append {τ : Topo} {sig : RefSig} {Val : EltTy → Type} (l₁ l₂ : List (HloOp τ sig Val))
    (W : Valuation τ sig Val) :
    StableHlo.after (l₁ ++ l₂) W = StableHlo.after l₂ (StableHlo.after l₁ W) := by
  induction l₁ generalizing W with
  | nil => rfl
  | cons op l ih => simp only [List.cons_append, after_cons, ih]

end LibAfterAppend
-- ==== Proof.RefRead.lean ====
/-
  The idealized reference's result as a function of its arguments.

  The reference is one line of 83 host operations; its buffers end at the fold of the operations over the launch
  memory. Cut the line into its six stretches: the fold over the whole line is the fold over the last stretch from
  what the fifth leaves, and so on down to the launch memory. Walking back from the result buffer — second layer of
  the second product, maximum with 0, aggregate-and-bias of the first product, the pairs' weights, a node's weight,
  the pairs — every buffer read is the previous stretch's result or a buffer carried unchanged from where it was
  written, down to the arguments as launched. What comes out is the network of the arguments.
-/
import proofs.«103256_j5394478924400_1_alg».proof.Proof.RefRun
import proofs.«103256_j5394478924400_1_alg».proof.Proof.RefStages
import proofs.«103256_j5394478924400_1_alg».proof.Proof.LibAfterAppend
import proofs.«103256_j5394478924400_1_alg».proof.Proof.Spec
import Idealize.ShloMosaic.PureOps.Ideal

set_option maxRecDepth 16384

noncomputable section

namespace Cert.ReferenceIdeal.Read

open Cert.ReferenceIdeal Cert.ReferenceIdeal.Gen Cert.ReferenceIdeal.ValueP Cert.ReferenceIdeal.Stages
open Idealize.ShloMosaic Idealize.ShloMosaic.TcCoe Idealize.ShloMosaic.StableHlo Idealize.SL.Sem

variable (m : (ℓ : Loc nD τ sig) → Buf (Elt Ideal) ℓ)

/-! ## The contents after each stretch -/

abbrev R0 (c : Dev nD) : Valuation τ sig (Elt Ideal) := launchContents m c
abbrev R1 (c : Dev nD) : Valuation τ sig (Elt Ideal) := StableHlo.after (opsA1 (F := Ideal)) (R0 m c)
abbrev R2 (c : Dev nD) : Valuation τ sig (Elt Ideal) := StableHlo.after (opsA2 (F := Ideal)) (R1 m c)
abbrev R3 (c : Dev nD) : Valuation τ sig (Elt Ideal) := StableHlo.after (opsA3 (F := Ideal)) (R2 m c)
abbrev R4 (c : Dev nD) : Valuation τ sig (Elt Ideal) := StableHlo.after (opsB1 (F := Ideal)) (R3 m c)
abbrev R5 (c : Dev nD) : Valuation τ sig (Elt Ideal) := StableHlo.after (opsB2 (F := Ideal)) (R4 m c)
abbrev R6 (c : Dev nD) : Valuation τ sig (Elt Ideal) := StableHlo.after (opsC (F := Ideal)) (R5 m c)

/-- The fold over the whole line is the fold through the six stretches. -/
theorem after_ops (c : Dev nD) : StableHlo.after (ops (F := Ideal)) (launchContents m c) = R6 m c := by
  rw [ops_eq, LibAfterAppend.after_append, LibAfterAppend.after_append, LibAfterAppend.after_append,
    LibAfterAppend.after_append, LibAfterAppend.after_append]

/-! ## The arguments -/

set_option maxHeartbeats 16000000 in
/-- None of the 83 operations writes an argument: after the whole line each argument buffer holds what it was launched with. -/
theorem args_kept (c : Dev nD) :
    StableHlo.after (ops (F := Ideal)) (launchContents m c) (Proc.devRef .tc main_arg0) = m ((c.tc : Thread nD τ).loc main_arg0)
    ∧ StableHlo.after (ops (F := Ideal)) (launchContents m c) (Proc.devRef .tc main_arg1) = m ((c.tc : Thread nD τ).loc main_arg1)
    ∧ StableHlo.after (ops (F := Ideal)) (launchContents m c) (Proc.devRef .tc main_arg2) = m ((c.tc : Thread nD τ).loc main_arg2)
    ∧ StableHlo.after (ops (F := Ideal)) (launchContents m c) (Proc.devRef .tc main_arg3) = m ((c.tc : Thread nD τ).loc main_arg3)
    ∧ StableHlo.after (ops (F := Ideal)) (launchContents m c) (Proc.devRef .tc main_arg4) = m ((c.tc : Thread nD τ).loc main_arg4)
    ∧ StableHlo.after (ops (F := Ideal)) (launchContents m c) (Proc.devRef .tc main_arg5) = m ((c.tc : Thread nD τ).loc main_arg5) := by
  refine ⟨?_, ?_, ?_, ?_, ?_, ?_⟩ <;>
  · refine (StableHlo.after_of_forall_not_mem _ _ (List.forall_iff_forall_mem.mp ?_)).trans rfl
    simp only [ops, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-! ## The fold, read back -/

set_option maxHeartbeats 4000000 in
/-- The result buffer after the whole line is the network of the arguments as launched. -/
theorem result_eq (c : Dev nD) :
    StableHlo.after (ops (F := Ideal)) (launchContents m c) (Proc.devRef .tc main_v64)
      = Gcn.network (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have h8 : R6 m c (Proc.devRef .tc main_v64) = Gcn.layer2 (F := Ideal) (Gcn.product2 (R5 m c (Proc.devRef .tc main_v47)) (R5 m c (Proc.devRef .tc main_arg4))) (R5 m c (Proc.devRef .tc main_v3)) (R5 m c (Proc.devRef .tc main_v6)) (R5 m c (Proc.devRef .tc main_v29)) (R5 m c (Proc.devRef .tc main_arg5)) := s6_layer2 (R5 m c)
  have u47 : R5 m c (Proc.devRef .tc main_v47) = maximumf (R4 m c (Proc.devRef .tc main_v46)) (broadcastInDim Gcn.SNodes128 ![] (by decide) (constant (F := Ideal) Gcn.SScalar .f32 0x00000000#32)) := s5_relu (R4 m c)
  have u_v3 : R5 m c (Proc.devRef .tc main_v3) = R4 m c (Proc.devRef .tc main_v3) := (s5_kept (R4 m c)).1
  have u_v6 : R5 m c (Proc.devRef .tc main_v6) = R4 m c (Proc.devRef .tc main_v6) := (s5_kept (R4 m c)).2.1
  have u_v29 : R5 m c (Proc.devRef .tc main_v29) = R4 m c (Proc.devRef .tc main_v29) := (s5_kept (R4 m c)).2.2.1
  have u_arg4 : R5 m c (Proc.devRef .tc main_arg4) = R4 m c (Proc.devRef .tc main_arg4) := (s5_kept (R4 m c)).2.2.2.1
  have u_arg5 : R5 m c (Proc.devRef .tc main_arg5) = R4 m c (Proc.devRef .tc main_arg5) := (s5_kept (R4 m c)).2.2.2.2
  have t46 : R4 m c (Proc.devRef .tc main_v46) = Gcn.preAct1 (F := Ideal) (Gcn.product1 (R3 m c (Proc.devRef .tc main_arg0)) (R3 m c (Proc.devRef .tc main_arg2))) (R3 m c (Proc.devRef .tc main_v3)) (R3 m c (Proc.devRef .tc main_v6)) (R3 m c (Proc.devRef .tc main_v29)) (R3 m c (Proc.devRef .tc main_arg3)) := s4_preAct (R3 m c)
  have t_v3 : R4 m c (Proc.devRef .tc main_v3) = R3 m c (Proc.devRef .tc main_v3) := (s4_kept (R3 m c)).1
  have t_v6 : R4 m c (Proc.devRef .tc main_v6) = R3 m c (Proc.devRef .tc main_v6) := (s4_kept (R3 m c)).2.1
  have t_v29 : R4 m c (Proc.devRef .tc main_v29) = R3 m c (Proc.devRef .tc main_v29) := (s4_kept (R3 m c)).2.2.1
  have t_arg4 : R4 m c (Proc.devRef .tc main_arg4) = R3 m c (Proc.devRef .tc main_arg4) := (s4_kept (R3 m c)).2.2.2.1
  have t_arg5 : R4 m c (Proc.devRef .tc main_arg5) = R3 m c (Proc.devRef .tc main_arg5) := (s4_kept (R3 m c)).2.2.2.2
  have r29 : R3 m c (Proc.devRef .tc main_v29) = (mulf (Host.gather Gcn.fromNodes (R2 m c (Proc.devRef .tc main_v14)) (Gcn.rowsOf (R2 m c (Proc.devRef .tc main_v3)))) (Host.gather Gcn.fromNodes (R2 m c (Proc.devRef .tc main_v14)) (Gcn.rowsOf (R2 m c (Proc.devRef .tc main_v6)))) : FVec Ideal Gcn.SPairs .f32) := s3_weights (R2 m c)
  have r_v3 : R3 m c (Proc.devRef .tc main_v3) = R2 m c (Proc.devRef .tc main_v3) := (s3_kept (R2 m c)).1
  have r_v6 : R3 m c (Proc.devRef .tc main_v6) = R2 m c (Proc.devRef .tc main_v6) := (s3_kept (R2 m c)).2.1
  have r_arg0 : R3 m c (Proc.devRef .tc main_arg0) = R2 m c (Proc.devRef .tc main_arg0) := (s3_kept (R2 m c)).2.2.1
  have r_arg2 : R3 m c (Proc.devRef .tc main_arg2) = R2 m c (Proc.devRef .tc main_arg2) := (s3_kept (R2 m c)).2.2.2.1
  have r_arg3 : R3 m c (Proc.devRef .tc main_arg3) = R2 m c (Proc.devRef .tc main_arg3) := (s3_kept (R2 m c)).2.2.2.2.1
  have r_arg4 : R3 m c (Proc.devRef .tc main_arg4) = R2 m c (Proc.devRef .tc main_arg4) := (s3_kept (R2 m c)).2.2.2.2.2.1
  have r_arg5 : R3 m c (Proc.devRef .tc main_arg5) = R2 m c (Proc.devRef .tc main_arg5) := (s3_kept (R2 m c)).2.2.2.2.2.2
  have q14 : R2 m c (Proc.devRef .tc main_v14) = select (R1 m c (Proc.devRef .tc main_v12)) (R1 m c (Proc.devRef .tc main_v13)) (broadcastInDim Gcn.SNodes ![] (by decide) (id (R1 m c (Proc.devRef .tc main_cst_2)))) := s2_weight (R1 m c)
  have q_v3 : R2 m c (Proc.devRef .tc main_v3) = R1 m c (Proc.devRef .tc main_v3) := (s2_kept (R1 m c)).1
  have q_v6 : R2 m c (Proc.devRef .tc main_v6) = R1 m c (Proc.devRef .tc main_v6) := (s2_kept (R1 m c)).2.1
  have q_arg0 : R2 m c (Proc.devRef .tc main_arg0) = R1 m c (Proc.devRef .tc main_arg0) := (s2_kept (R1 m c)).2.2.1
  have q_arg2 : R2 m c (Proc.devRef .tc main_arg2) = R1 m c (Proc.devRef .tc main_arg2) := (s2_kept (R1 m c)).2.2.2.1
  have q_arg3 : R2 m c (Proc.devRef .tc main_arg3) = R1 m c (Proc.devRef .tc main_arg3) := (s2_kept (R1 m c)).2.2.2.2.1
  have q_arg4 : R2 m c (Proc.devRef .tc main_arg4) = R1 m c (Proc.devRef .tc main_arg4) := (s2_kept (R1 m c)).2.2.2.2.2.1
  have q_arg5 : R2 m c (Proc.devRef .tc main_arg5) = R1 m c (Proc.devRef .tc main_arg5) := (s2_kept (R1 m c)).2.2.2.2.2.2
  have p12 : R1 m c (Proc.devRef .tc main_v12) = Gcn.positive (F := Ideal) (Gcn.targets (m ((c.tc : Thread nD τ).loc main_arg1))) := s1_positive (R0 m c)
  have p13 : R1 m c (Proc.devRef .tc main_v13) = Gcn.invRoot (F := Ideal) (Gcn.targets (m ((c.tc : Thread nD τ).loc main_arg1))) := s1_invRoot (R0 m c)
  have pz : R1 m c (Proc.devRef .tc main_cst_2) = constant (F := Ideal) Gcn.SScalar .f32 0x00000000#32 := s1_zero (R0 m c)
  have p3 : R1 m c (Proc.devRef .tc main_v3) = Gcn.sources (m ((c.tc : Thread nD τ).loc main_arg1)) := s1_sources (R0 m c)
  have p6 : R1 m c (Proc.devRef .tc main_v6) = Gcn.targets (m ((c.tc : Thread nD τ).loc main_arg1)) := s1_targets (R0 m c)
  have p_arg0 : R1 m c (Proc.devRef .tc main_arg0) = (m ((c.tc : Thread nD τ).loc main_arg0)) := (s1_kept (R0 m c)).1
  have p_arg2 : R1 m c (Proc.devRef .tc main_arg2) = (m ((c.tc : Thread nD τ).loc main_arg2)) := (s1_kept (R0 m c)).2.1
  have p_arg3 : R1 m c (Proc.devRef .tc main_arg3) = (m ((c.tc : Thread nD τ).loc main_arg3)) := (s1_kept (R0 m c)).2.2.1
  have p_arg4 : R1 m c (Proc.devRef .tc main_arg4) = (m ((c.tc : Thread nD τ).loc main_arg4)) := (s1_kept (R0 m c)).2.2.2.1
  have p_arg5 : R1 m c (Proc.devRef .tc main_arg5) = (m ((c.tc : Thread nD τ).loc main_arg5)) := (s1_kept (R0 m c)).2.2.2.2
  rw [after_ops m c, h8, u47, u_v3, u_v6, u_v29, u_arg4, u_arg5, t46, t_v3, t_v6, t_v29, t_arg4, t_arg5, r29, r_v3, r_v6, r_arg0, r_arg2, r_arg3, r_arg4, r_arg5, q14, q_v3, q_v6, q_arg0, q_arg2, q_arg3, q_arg4, q_arg5, p12, p13, pz, p3, p6, p_arg0, p_arg2, p_arg3, p_arg4, p_arg5]
  rfl

end Cert.ReferenceIdeal.Read

end
-- ==== Proof.lean ====
/-
  A two-layer graph convolution over 100000 nodes and 1600000 edges, its two matrix products run as blocked
  kernels, against the same network with each product one host matrix product.

  The two programs are the same line of host operations — the pairs (edges and self-loops), the degrees, the pairs'
  weights, gather · scale · scatter-add, the bias rows, the maximum with 0 — except where the table is multiplied by a
  weight matrix: the kernel program cuts the 100000 rows into ten blocks of 10000 and multiplies each block, rounded
  to bf16 on the way in, into a zero accumulator; the reference multiplies the whole table at once. Over the extended
  reals rounding is the identity, an entry of a product depends on one row of the left operand only, and the ten blocks
  tile the rows: each blocked product leaves exactly the whole product (Product0, Product1). Everything else is shared,
  so both results are ONE function of the arguments, `Gcn.network` (Spec): the kernel program's last boundary read back
  through its eight segments (KernelRun, KernelRead), the reference's fold read back through its three stretches
  (RefRun, RefRead). No law used needs a finite operand: the precondition is never opened.

  The frames: the kernel programs' are the generated ones; the reference's is its run with the result dropped.
  No operation was rewritten by the idealization, so there is nothing to preserve.
-/
import proofs.«103256_j5394478924400_1_alg».proof.Defs
import proofs.«103256_j5394478924400_1_alg».proof.Proof.Gen.Kernel
import proofs.«103256_j5394478924400_1_alg».proof.Proof.Gen.Kernel.Frame
import proofs.«103256_j5394478924400_1_alg».proof.Proof.Gen.KernelIdeal
import proofs.«103256_j5394478924400_1_alg».proof.Proof.Gen.KernelIdeal.Frame
import proofs.«103256_j5394478924400_1_alg».proof.Proof.Gen.ReferenceIdeal
import proofs.«103256_j5394478924400_1_alg».proof.Proof.Gen.Pre_finite_inputs
import proofs.«103256_j5394478924400_1_alg».proof.Proof.KernelRun
import proofs.«103256_j5394478924400_1_alg».proof.Proof.KernelRead
import proofs.«103256_j5394478924400_1_alg».proof.Proof.RefRun
import proofs.«103256_j5394478924400_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to the fold of its operations, and none of them writes an argument. -/
theorem frame_referenceIdeal : Cert.frame_ReferenceIdeal := fun m ρ _ =>
  (θ_run Cert.ReferenceIdeal.defs _ _).mono (fun r h c => by
      obtain ⟨k0, k1, k2, k3, k4, k5⟩ := Cert.ReferenceIdeal.Read.args_kept m c
      exact ⟨(h c Cert.ReferenceIdeal.main_arg0).trans k0, (h c Cert.ReferenceIdeal.main_arg1).trans k1,
        (h c Cert.ReferenceIdeal.main_arg2).trans k2, (h c Cert.ReferenceIdeal.main_arg3).trans k3,
        (h c Cert.ReferenceIdeal.main_arg4).trans k4, (h c Cert.ReferenceIdeal.main_arg5).trans k5⟩)
    (Cert.ReferenceIdeal.ValueP.run (F := Ideal) m ρ)

theorem preserves : Cert.preserves_Kernel_KernelIdeal := trivial

/-- From memories agreeing on the arguments both programs end with the network of those arguments in the result buffer. -/
theorem algebraic : Cert.algebraic_KernelIdeal_ReferenceIdeal := by
  intro m ρ m' ρ' _ hagree
  refine ⟨fun c => Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Read.result_eq m ρ c), (h c).2⟩)
      (Cert.KernelIdeal.Run.run_named (F := Ideal) m ρ)
  · refine (θ_run Cert.ReferenceIdeal.defs _ _).mono (fun r h c => ?_) (Cert.ReferenceIdeal.ValueP.run (F := Ideal) m' ρ')
    obtain ⟨g0, g1, g2, g3, g4, g5⟩ := hagree c
    obtain ⟨k0, k1, k2, k3, k4, k5⟩ := Cert.ReferenceIdeal.Read.args_kept m' c
    refine ⟨?_, (h c Cert.ReferenceIdeal.main_arg0).trans k0, (h c Cert.ReferenceIdeal.main_arg1).trans k1,
      (h c Cert.ReferenceIdeal.main_arg2).trans k2, (h c Cert.ReferenceIdeal.main_arg3).trans k3,
      (h c Cert.ReferenceIdeal.main_arg4).trans k4, (h c Cert.ReferenceIdeal.main_arg5).trans k5⟩
    rw [h c Cert.ReferenceIdeal.main_v64, Cert.ReferenceIdeal.Read.result_eq m' c, g0, g1, g2, g3, g4, g5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
